-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 91
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x64, .f32⟩
  | .hbm, ⟨100, _⟩ => ⟨S850000x1, .f32⟩
  | .hbm, ⟨101, _⟩ => ⟨S850000x64, .f32⟩
  | .hbm, ⟨102, _⟩ => ⟨S850000x64, .f32⟩
  | .hbm, ⟨103, _⟩ => ⟨S_, .f32⟩
  | .hbm, ⟨104, _⟩ => ⟨S50000x64, .f32⟩
  | .hbm, ⟨105, _⟩ => ⟨S850000x1, .i32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel program's run, with the result read: every weakly fair execution of the whole program — three stretches of
  host operations, the first kernel, two more stretches, the second kernel, a last stretch — ends with the result
  buffer at the contents the last stretch leaves, the six arguments as launched. It is the frame's own launch over the
  same segments and proof data; the only difference is that the last thread state, which holds EVERY buffer at the
  contents after the last stretch, is also read at the result buffer. The value of those contents is computed in
  the modules that follow.
-/
import proofs.«164128_j11321533792838_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    after the last host stretch and the argument arrays as launched. -/
theorem run_result : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.MatmulSpec.lean ====
/-
  The one piece of mathematics the two programs share that is not the same text on both sides: a matrix product
  read entry by entry. For `x` of shape [M, K] and `w` of shape [K, N] over the extended reals, the entry of
  `x · w` at row `r` and column `c` is the sum over the K positions `k` of `x[r, k] · w[k, c]`.
  The kernel computes the product ten row-blocks at a time into a zero accumulator, after narrowing both factors to
  a shorter float format (the identity on extended reals); the reference computes it in one host product. Each is
  shown, in its own module, to be this function; nothing here needs the entries to be finite, since no sum is
  regrouped and no factor is moved.
-/
import Idealize.ShloMosaic.PureOps.Ideal.Laws
import Idealize.ShloMosaic.Lib.ValueIdx

noncomputable section

open scoped BigOperators

namespace Cert.Gcn

open Idealize.ShloMosaic Idealize.ShloMosaic.ValueIdx

/-- The product of a [M, K] array of rows with a [K, N] array of weights: entry (r, c) is Σₖ x[r, k] · w[k, c]. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (i : (⟨2, ![M, N]⟩ : Shape).Idx) : rowsTimes x w i = ∑ k : Fin K, x (ix2 (i 0) k) * w (ix2 k (i 1)) := rfl

end Cert.Gcn

end
-- ==== Proof.KernelDot.lean ====
/-
  What one grid point of each kernel stores, as a function of the two blocks it loads: the entrywise product of the
  5000 loaded rows with the loaded weights. The body narrows both blocks to a shorter float format (the identity on
  the extended reals), multiplies them on the matrix unit into an accumulator of zeros (so the entry is the bare sum
  over the contraction position) and stores the result whole; the second kernel first re-views its rows in the shape
  they already have, which changes nothing.
-/
import proofs.«164128_j11321533792838_1_alg».proof.Proof.Gen.KernelIdeal.Skeleton
import proofs.«164128_j11321533792838_1_alg».proof.Proof.MatmulSpec
import Idealize.ShloMosaic.Lib.Pipeline.Value

noncomputable section

open scoped BigOperators

namespace Cert.KernelIdeal.Dot

open Cert.KernelIdeal Cert.KernelIdeal.Gen Idealize.ShloMosaic

/-! ### The dimension numbers `dot_S5000x128_S128x128_S5000x128_1_0_0_1_n_n`: contract the left's axis 1 with the right's axis 0 -/

theorem first_lhs0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem first_lhs1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem first_rhs0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem first_rhs1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The sum over this dot's one contraction axis, re-indexed by its position `k`, is the product's entry: the left
    factor is read at (row of `j`, `k`) and the right at (`k`, column of `j`). -/
theorem first_sum (l : S5000x128.Idx → EReal) (r : S128x128.Idx → EReal) (j : S5000x128.Idx) :
    ∑ q : dot_S5000x128_S128x128_S5000x128_1_0_0_1_n_n.contr.Idx, l (dot_S5000x128_S128x128_S5000x128_1_0_0_1_n_n.lhsIdx j q) * r (dot_S5000x128_S128x128_S5000x128_1_0_0_1_n_n.rhsIdx j q) = Cert.Gcn.rowsTimes l r j := by
  rw [Cert.Gcn.rowsTimes_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ValueIdx.ix2 (j 0) k := funext fun a => Fin.ext (by
    match a with
    | ⟨0, _⟩ => exact first_lhs0 _ _
    | ⟨1, _⟩ => exact (first_lhs1 _ _).trans hk)
  have er : dot_S5000x128_S128x128_S5000x128_1_0_0_1_n_n.rhsIdx j ((ValueIdx.contrEquiv1 dot_S5000x128_S128x128_S5000x128_1_0_0_1_n_n 128 rfl rfl).symm k) = ValueIdx.ix2 k (j 1) := funext fun a => Fin.ext (by
    match a with
    | ⟨0, _⟩ => exact (first_rhs0 _ _).trans hk
    | ⟨1, _⟩ => exact first_rhs1 _ _)
  rw [el, er]
  rfl

/-! ### The dimension numbers `dot_S5000x128_S128x64_S5000x64_1_0_0_1_n_n`: contract the left's axis 1 with the right's axis 0 -/

theorem second_lhs0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem second_lhs1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem second_rhs0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem second_rhs1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The sum over this dot's one contraction axis, re-indexed by its position `k`, is the product's entry: the left
    factor is read at (row of `j`, `k`) and the right at (`k`, column of `j`). -/
theorem second_sum (l : S5000x128.Idx → EReal) (r : S128x64.Idx → EReal) (j : S5000x64.Idx) :
    ∑ q : dot_S5000x128_S128x64_S5000x64_1_0_0_1_n_n.contr.Idx, l (dot_S5000x128_S128x64_S5000x64_1_0_0_1_n_n.lhsIdx j q) * r (dot_S5000x128_S128x64_S5000x64_1_0_0_1_n_n.rhsIdx j q) = Cert.Gcn.rowsTimes l r j := by
  rw [Cert.Gcn.rowsTimes_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ValueIdx.ix2 (j 0) k := funext fun a => Fin.ext (by
    match a with
    | ⟨0, _⟩ => exact second_lhs0 _ _
    | ⟨1, _⟩ => exact (second_lhs1 _ _).trans hk)
  have er : dot_S5000x128_S128x64_S5000x64_1_0_0_1_n_n.rhsIdx j ((ValueIdx.contrEquiv1 dot_S5000x128_S128x64_S5000x64_1_0_0_1_n_n 128 rfl rfl).symm k) = ValueIdx.ix2 k (j 1) := funext fun a => Fin.ext (by
    match a with
    | ⟨0, _⟩ => exact (second_rhs0 _ _).trans hk
    | ⟨1, _⟩ => exact second_rhs1 _ _)
  rw [el, er]
  rfl

/-- The first kernel's stored value: the loaded rows times the loaded weights. -/
theorem first_payload (x : Vec Ideal S5000x128 .f32) (w : Vec Ideal S128x128 .f32) :
    k0_pay1 (F := Ideal) x w = Cert.Gcn.rowsTimes x w := by
  funext j
  unfold k0_pay1
  refine (Ideal.matmul_constant_zero_apply dot_S5000x128_S128x128_S5000x128_1_0_0_1_n_n none _ _ j).trans ?_
  exact first_sum x w j

/-- The second kernel's stored value: the loaded rows (re-viewed in their own shape) times the loaded weights. -/
theorem second_payload (x : Vec Ideal S5000x128 .f32) (w : Vec Ideal S128x64 .f32) :
    k1_pay1 (F := Ideal) x w = Cert.Gcn.rowsTimes x w := by
  funext j
  unfold k1_pay1
  refine (Ideal.matmul_constant_zero_apply dot_S5000x128_S128x64_S5000x64_1_0_0_1_n_n none _ _ j).trans ?_
  rw [shapeCast_self]
  exact second_sum x w j

end Cert.KernelIdeal.Dot

end
-- ==== Proof.KernelBlocks.lean ====
/-
  From blocks to arrays, for both kernels. Each kernel walks a grid of ten points; at point `t` it loads rows
  5000·t … 5000·t + 4999 of its rows array and the whole weights array, and writes the product of the two back as rows
  5000·t … 5000·t + 4999 of its result array. Entry (r, c) of a product depends on row r of the rows and column c of
  the weights only, so block `t` of the whole product IS the product of block `t` of the rows with the weights; the ten
  blocks tile the 50000 rows, so the result array ends as the whole product. Stated for ANY contents `V` the region is
  entered from, because the second kernel's rows are computed by the host between the two kernels.
-/
import proofs.«164128_j11321533792838_1_alg».proof.Proof.Gen.KernelIdeal.Frame
import proofs.«164128_j11321533792838_1_alg».proof.Proof.KernelDot

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-! ## The first kernel: ten blocks of 5000 rows -/

section first

/-- The printed index maps of the three windows, decided over the ten grid points: the rows window and the result
    window sit at block row `t` and block column 0; the weights window stays at block (0, 0). -/
theorem first_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the whole rows array with the whole weights array, as
    the region finds them: row `y₀` of the block is row `5000·t + y₀` of the array, and the weights block is the
    whole weights array, so the entry's sum over the contraction position is the same sum. -/
theorem first_flushed (c : Dev nD) (t : Fin cfg0.N) :
    (dat0 (F := Ideal) V c).flushed 2 t
      = ((cfg0.win 2).blk t).view.read (Elt Ideal)
          (Cert.Gcn.rowsTimes (M := 50000) (K := 128) (N := 128) (V c main_arg0) (V c main_arg2)) := by
  show (cfg0.win 2).cut (grid0.coords t) ((dat0 (F := Ideal) V c).after 2 t) = _
  rw [after0_2]
  unfold out0_2
  rw [View.canon_unit_zero zeros2]
  simp only [View.ld_unit_zero (S := S5000x128) zeros2, View.ld_unit_zero (S := S128x128) zeros2]
  rw [Dot.first_payload]
  obtain ⟨e0, e1, e2, e3, e4, e5⟩ := first_index_maps t
  funext y
  show Cert.Gcn.rowsTimes (M := 5000) (K := 128) (N := 128) (iblk0 V c 0 t) (iblk0 V c 1 t) y
      = Cert.Gcn.rowsTimes (M := 50000) (K := 128) (N := 128) (V c main_arg0) (V c main_arg2) (((cfg0.win 2).blk t).view.emb y)
  rw [Cert.Gcn.rowsTimes_apply, Cert.Gcn.rowsTimes_apply]
  refine Finset.sum_congr rfl fun k _ => ?_
  have hx : ((cfg0.win 0).blk t).view.emb (ValueIdx.ix2 (y 0) k) = ValueIdx.ix2 ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hw : ((cfg0.win 1).blk t).view.emb (ValueIdx.ix2 k (y 1)) = ValueIdx.ix2 k ((((cfg0.win 2).blk t).view.emb y) 1) := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  refine congrArg₂ (· * ·) ?_ ?_
  · show V c main_arg0 (((cfg0.win 0).blk t).view.emb (ValueIdx.ix2 (y 0) k)) = _
    exact congrArg _ hx
  · show V c main_arg2 (((cfg0.win 1).blk t).view.emb (ValueIdx.ix2 k (y 1))) = _
    exact congrArg _ hw

/-- An index of the result array is in point `t`'s block iff each coordinate is in the block's range on its axis. -/
theorem first_mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- THE BLOCKS COVER THE ARRAY: row `r` lies in the block of point `r / 5000`, and every point writes its block back. -/
theorem first_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨e0, e1, e2, e3, e4, e5⟩ := first_index_maps t
  refine ⟨t, flush0_2 t, ?_⟩
  rw [first_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region: the product of the rows array with the weights array as the region found them. -/
theorem first_array (c : Dev nD) :
    (dat0 (F := Ideal) V c).arrAt 2 cfg0.N
      = Cert.Gcn.rowsTimes (M := 50000) (K := 128) (N := 128) (V c main_arg0) (V c main_arg2) :=
  (dat0 (F := Ideal) V c).arrAt_eq_of_cover 2 _ (fun t _ => first_flushed V c t) first_cover

end first

/-! ## The second kernel: ten blocks of 5000 rows -/

section second

/-- The printed index maps of the three windows, decided over the ten grid points: the rows window and the result
    window sit at block row `t` and block column 0; the weights window stays at block (0, 0). -/
theorem second_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the whole rows array with the whole weights array, as
    the region finds them: row `y₀` of the block is row `5000·t + y₀` of the array, and the weights block is the
    whole weights array, so the entry's sum over the contraction position is the same sum. -/
theorem second_flushed (c : Dev nD) (t : Fin cfg1.N) :
    (dat1 (F := Ideal) V c).flushed 2 t
      = ((cfg1.win 2).blk t).view.read (Elt Ideal)
          (Cert.Gcn.rowsTimes (M := 50000) (K := 128) (N := 64) (V c main_v48) (V c main_arg4)) := by
  show (cfg1.win 2).cut (grid1.coords t) ((dat1 (F := Ideal) V c).after 2 t) = _
  rw [after1_2]
  unfold out1_2
  rw [View.canon_unit_zero zeros2]
  simp only [View.ld_unit_zero (S := S5000x128) zeros2, View.ld_unit_zero (S := S128x64) zeros2]
  rw [Dot.second_payload]
  obtain ⟨e0, e1, e2, e3, e4, e5⟩ := second_index_maps t
  funext y
  show Cert.Gcn.rowsTimes (M := 5000) (K := 128) (N := 64) (iblk1 V c 0 t) (iblk1 V c 1 t) y
      = Cert.Gcn.rowsTimes (M := 50000) (K := 128) (N := 64) (V c main_v48) (V c main_arg4) (((cfg1.win 2).blk t).view.emb y)
  rw [Cert.Gcn.rowsTimes_apply, Cert.Gcn.rowsTimes_apply]
  refine Finset.sum_congr rfl fun k _ => ?_
  have hx : ((cfg1.win 0).blk t).view.emb (ValueIdx.ix2 (y 0) k) = ValueIdx.ix2 ((((cfg1.win 2).blk t).view.emb y) 0) k := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * k.val = k.val; omega
  have hw : ((cfg1.win 1).blk t).view.emb (ValueIdx.ix2 k (y 1)) = ValueIdx.ix2 k ((((cfg1.win 2).blk t).view.emb y) 1) := by
    funext a; apply Fin.ext
    match a with
    | ⟨0, _⟩ => show win1_1.index t (0 : Fin 2) * 128 + 1 * k.val = k.val; omega
    | ⟨1, _⟩ => show win1_1.index t (1 : Fin 2) * 64 + 1 * (y 1).val = win1_2.index t (1 : Fin 2) * 64 + 1 * (y 1).val; omega
  refine congrArg₂ (· * ·) ?_ ?_
  · show V c main_v48 (((cfg1.win 0).blk t).view.emb (ValueIdx.ix2 (y 0) k)) = _
    exact congrArg _ hx
  · show V c main_arg4 (((cfg1.win 1).blk t).view.emb (ValueIdx.ix2 k (y 1))) = _
    exact congrArg _ hw

/-- An index of the result array is in point `t`'s block iff each coordinate is in the block's range on its axis. -/
theorem second_mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- THE BLOCKS COVER THE ARRAY: row `r` lies in the block of point `r / 5000`, and every point writes its block back. -/
theorem second_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨e0, e1, e2, e3, e4, e5⟩ := second_index_maps t
  refine ⟨t, flush1_2 t, ?_⟩
  rw [second_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE RESULT ARRAY after the region: the product of the rows array with the weights array as the region found them. -/
theorem second_array (c : Dev nD) :
    (dat1 (F := Ideal) V c).arrAt 2 cfg1.N
      = Cert.Gcn.rowsTimes (M := 50000) (K := 128) (N := 64) (V c main_v48) (V c main_arg4) :=
  (dat1 (F := Ideal) V c).arrAt_eq_of_cover 2 _ (fun t _ => second_flushed V c t) second_cover

end second

end Cert.KernelIdeal.Blocks

end
-- ==== Proof.KernelLayers.lean ====
/-
  The host side of the graph convolution, as functions of arrays: what the operations of `KernelIdeal` around the two
  matrix products compute, named by what they mean.
  The 850000 edges are the 800000 given ones followed by one self loop per node; `src` and `dst` are their end points.
  A node's degree counts the edges that end in it; its weight is degree^(-1/2) where the degree is positive and 0
  elsewhere; an edge's weight is the product of its two end points' weights. A layer gathers, for every edge, the row
  of its source node, scales it by the edge's weight, adds the scaled rows up at the edge's destination node, and
  adds the bias to every row. Between the two layers negative entries are replaced by zero.
  A node index below zero counts from the end (i + 50000), as jnp indexing does: `wrap`.
-/
import proofs.«164128_j11321533792838_1_alg».proof.Proof.Gen.KernelIdeal
import proofs.«164128_j11321533792838_1_alg».proof.Proof.MatmulSpec

noncomputable section

namespace Cert.KernelIdeal.Gcn

open Cert.KernelIdeal Cert.KernelIdeal.Gen Idealize.ShloMosaic

variable {F : FTy → Type} [FloatOps F]

/-- The source node of every edge: row 0 of the edge list, then the nodes 0 … 49999 for the self loops. -/
def src (e : IVec S2x800000 32) : IVec S850000 32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The destination node of every edge: row 1 of the edge list, then the nodes 0 … 49999 for the self loops. -/
def dst (e : IVec S2x800000 32) : IVec S850000 32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node indices as a column of start indices for a gather, an index below zero read as counting from the end. -/
def wrap (ix : IVec S850000 32) : IVec S850000x1 32 :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- A node's degree: one for every edge that ends in it, added onto zeros. -/
def degree (d : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- A node's weight: degree^(-1/2) where the degree is above zero, zero elsewhere. -/
def nodeWeight (d : IVec S850000 32) : FVec F S50000 .f32 :=
  select (cmpf .ogt (degree (F := F) d) (broadcastInDim S50000 ![] bcast_S_S50000 (constant S_ .f32 0x00000000#32)))
    (Host.powf (degree (F := F) d) (broadcastInDim S50000 ![] bcast_S_S50000 (constant S_ .f32 0xBF000000#32)))
    (broadcastInDim S50000 ![] bcast_S_S50000 (id (constant S_ .f32 0x00000000#32)))

/-- An edge's weight: the product of the weights of its source and of its destination. -/
def edgeWeight (s d : IVec S850000 32) : FVec F S850000 .f32 :=
  mulf (Host.gather gather_S50000_S850000x1_S850000_n_0_n_n_0_1_1 (nodeWeight (F := F) d) (wrap s))
    (Host.gather gather_S50000_S850000x1_S850000_n_0_n_n_0_1_1 (nodeWeight (F := F) d) (wrap d))

/-- The first layer's aggregation over 128 features: each edge's source row scaled by the edge's weight, summed at the
    edge's destination, plus the bias on every row. -/
def aggregate128 (s d : IVec S850000 32) (n : FVec F S850000 .f32) (h : FVec F S50000x128 .f32) (b : FVec F S128 .f32) :
    FVec F S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (mulf (Host.gather gather_S50000x128_S850000x1_S850000x128_1_0_n_n_0_1_1128 h (wrap s))
        (broadcastInDim S850000x128 ![0, 1] bcast_S850000x1_S850000x128_0_1 (broadcastInDim S850000x1 ![0] bcast_S850000_S850000x1_0 n))))
    (broadcastInDim S50000x128 ![0, 1] bcast_S1x128_S50000x128_0_1 (broadcastInDim S1x128 ![1] bcast_S128_S1x128_1 b))

/-- Negative entries replaced by zero. -/
def relu (h : FVec F S50000x128 .f32) : FVec F S50000x128 .f32 :=
  maximumf h (broadcastInDim S50000x128 ![] bcast_S_S50000x128 (constant S_ .f32 0x00000000#32))

/-- The second layer's aggregation over 64 features. -/
def aggregate64 (s d : IVec S850000 32) (n : FVec F S850000 .f32) (h : FVec F S50000x64 .f32) (b : FVec F S64 .f32) :
    FVec F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 d)
      (mulf (Host.gather gather_S50000x64_S850000x1_S850000x64_1_0_n_n_0_1_164 h (wrap s))
        (broadcastInDim S850000x64 ![0, 1] bcast_S850000x1_S850000x64_0_1 (broadcastInDim S850000x1 ![0] bcast_S850000_S850000x1_0 n))))
    (broadcastInDim S50000x64 ![0, 1] bcast_S1x64_S50000x64_0_1 (broadcastInDim S1x64 ![1] bcast_S64_S1x64_1 b))

/-- THE WHOLE NETWORK over the extended reals, the two products written as entrywise products: layer one on the node
    features, zeroing of the negatives, layer two. Both programs are shown to compute this function of their six
    arguments. -/
def network (x : FVec Ideal S50000x128 .f32) (e : IVec S2x800000 32) (w1 : FVec Ideal S128x128 .f32) (b1 : FVec Ideal S128 .f32)
    (w2 : FVec Ideal S128x64 .f32) (b2 : FVec Ideal S64 .f32) : FVec Ideal S50000x64 .f32 :=
  aggregate64 (F := Ideal) (src e) (dst e) (edgeWeight (F := Ideal) (src e) (dst e))
    (Cert.Gcn.rowsTimes (M := 50000) (K := 128) (N := 64)
      (relu (F := Ideal) (aggregate128 (F := Ideal) (src e) (dst e) (edgeWeight (F := Ideal) (src e) (dst e))
        (Cert.Gcn.rowsTimes (M := 50000) (K := 128) (N := 128) x w1) b1)) w2) b2

end Cert.KernelIdeal.Gcn

end
-- ==== Proof.KernelStretches.lean ====
/-
  The program's stretches of host operations, each read as a function of the buffer contents it starts from — ANY
  contents `Wp`, and any float instance, so that every equation here is between small terms. The first stretch is cut
  in two: its first seven operations build the edges' end points from the edge list; the other thirteen count the
  degrees and prepare the two branches of the node weight. Then the called function that selects between the
  branches; the stretch that gathers the node weights along the edges and multiplies them; the first layer's
  aggregation; the called function that zeroes the negatives; the second layer's aggregation.
-/
import proofs.«164128_j11321533792838_1_alg».proof.Proof.Gen.KernelIdeal.Frame
import proofs.«164128_j11321533792838_1_alg».proof.Proof.KernelLayers
import Idealize.ShloMosaic.Lib.StableHlo.Run

set_option maxRecDepth 16384
set_option maxHeartbeats 4000000

noncomputable section

namespace Cert.KernelIdeal.Stretch

open Cert.KernelIdeal Cert.KernelIdeal.Gen Cert.KernelIdeal.Gcn
open Idealize.ShloMosaic Idealize.ShloMosaic.TcCoe Idealize.SL.Sem Idealize.ShloMosaic.StableHlo

variable {F : FTy → Type} [FloatOps F]

/-! ## The first stretch, in two parts -/

/-- Its first seven operations: node numbers, the two rows of the edge list, each followed by the node numbers. -/
abbrev endpointOps : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Its other thirteen: ones added up at the destinations, the comparison with zero, the power -1/2, a zero. -/
abbrev degreeOps : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32) ]

theorem first_stretch_split : (hostOps0 : List (HloOp τ sig (Elt F))) = endpointOps ++ degreeOps := rfl

variable (Wp : Valuation τ sig (Elt F))

theorem endpoints_src : StableHlo.after (endpointOps (F := F)) Wp (Proc.devRef .tc main_v3) = src (Wp (Proc.devRef .tc main_arg1)) := by
  dsimp only [endpointOps]
  after_results_simp <;> rfl

theorem endpoints_dst : StableHlo.after (endpointOps (F := F)) Wp (Proc.devRef .tc main_v6) = dst (Wp (Proc.devRef .tc main_arg1)) := by
  dsimp only [endpointOps]
  after_results_simp <;> rfl

theorem degree_positive : StableHlo.after (degreeOps (F := F)) Wp (Proc.devRef .tc main_v12)
    = cmpf (F := F) .ogt (degree (F := F) (Wp (Proc.devRef .tc main_v6))) (broadcastInDim S50000 ![] bcast_S_S50000 (constant (F := F) S_ .f32 0x00000000#32)) := by
  dsimp only [degreeOps]
  after_results_simp <;> rfl

theorem degree_power : StableHlo.after (degreeOps (F := F)) Wp (Proc.devRef .tc main_v14)
    = Host.powf (F := F) (degree (F := F) (Wp (Proc.devRef .tc main_v6))) (broadcastInDim S50000 ![] bcast_S_S50000 (constant (F := F) S_ .f32 0xBF000000#32)) := by
  dsimp only [degreeOps]
  after_results_simp <;> rfl

theorem degree_zero : StableHlo.after (degreeOps (F := F)) Wp (Proc.devRef .tc main_cst_3) = constant (F := F) S_ .f32 0x00000000#32 := by
  dsimp only [degreeOps]
  after_results_simp <;> rfl

theorem degree_keeps_src : StableHlo.after (degreeOps (F := F)) Wp (Proc.devRef .tc main_v3) = Wp (Proc.devRef .tc main_v3) := by
  dsimp only [degreeOps]
  after_results_simp <;> rfl

theorem degree_keeps_dst : StableHlo.after (degreeOps (F := F)) Wp (Proc.devRef .tc main_v6) = Wp (Proc.devRef .tc main_v6) := by
  dsimp only [degreeOps]
  after_results_simp <;> rfl

/-! ## The called selection: the power where the degree is positive, zero elsewhere -/

theorem select_weight : StableHlo.after (hostOps0_1 (F := F)) Wp (Proc.devRef .tc main_v15)
    = select (Wp (Proc.devRef .tc main_v12)) ((Wp (Proc.devRef .tc main_v14)) : FVec F S50000 .f32) (broadcastInDim S50000 ![] bcast_S_S50000 (id ((Wp (Proc.devRef .tc main_cst_3)) : FVec F S_ .f32))) := by
  dsimp only [hostOps0_1]
  after_results_simp <;> rfl

theorem select_keeps_src : StableHlo.after (hostOps0_1 (F := F)) Wp (Proc.devRef .tc main_v3) = Wp (Proc.devRef .tc main_v3) := by
  dsimp only [hostOps0_1]
  after_results_simp <;> rfl

theorem select_keeps_dst : StableHlo.after (hostOps0_1 (F := F)) Wp (Proc.devRef .tc main_v6) = Wp (Proc.devRef .tc main_v6) := by
  dsimp only [hostOps0_1]
  after_results_simp <;> rfl

/-! ## The edges' weights: the node weights gathered at both end points, multiplied -/

theorem edge_weights : StableHlo.after (hostOps0_2 (F := F)) Wp (Proc.devRef .tc main_v30)
    = mulf (F := F) (Host.gather gather_S50000_S850000x1_S850000_n_0_n_n_0_1_1 ((Wp (Proc.devRef .tc main_v15)) : FVec F S50000 .f32) (wrap (Wp (Proc.devRef .tc main_v3))))
        (Host.gather gather_S50000_S850000x1_S850000_n_0_n_n_0_1_1 ((Wp (Proc.devRef .tc main_v15)) : FVec F S50000 .f32) (wrap (Wp (Proc.devRef .tc main_v6)))) := by
  dsimp only [hostOps0_2]
  after_results_simp <;> rfl

/-! ## The two aggregations and the zeroing of negatives between them -/

theorem layer1_sum : StableHlo.after (hostOps1 (F := F)) Wp (Proc.devRef .tc main_v47)
    = aggregate128 (F := F) (Wp (Proc.devRef .tc main_v3)) (Wp (Proc.devRef .tc main_v6)) (Wp (Proc.devRef .tc main_v30)) (Wp (Proc.devRef .tc main_v31)) (Wp (Proc.devRef .tc main_arg3)) := by
  dsimp only [hostOps1]
  after_results_simp <;> rfl

theorem zero_negatives : StableHlo.after (hostOps1_1 (F := F)) Wp (Proc.devRef .tc main_v48) = relu (F := F) (Wp (Proc.devRef .tc main_v47)) := by
  dsimp only [hostOps1_1]
  after_results_simp <;> rfl

theorem layer2_sum : StableHlo.after (hostOps2 (F := F)) Wp (Proc.devRef .tc main_v65)
    = aggregate64 (F := F) (Wp (Proc.devRef .tc main_v3)) (Wp (Proc.devRef .tc main_v6)) (Wp (Proc.devRef .tc main_v30)) (Wp (Proc.devRef .tc main_v49)) (Wp (Proc.devRef .tc main_arg5)) := by
  dsimp only [hostOps2]
  after_results_simp <;> rfl

end Cert.KernelIdeal.Stretch

end
-- ==== Proof.KernelValue.lean ====
/-
  What the kernel program computes, boundary by boundary. The program is: host operations that build the edges' end
  points and weights; the first kernel (node features times the first weights); host operations that aggregate over the
  edges, add the bias and zero the negatives; the second kernel (the result times the second weights); host operations
  that aggregate again and add the second bias. At each boundary the buffers that later operations read are named as
  functions of the six arguments: a stretch of host operations by its lemma over arbitrary starting contents; a kernel
  region changes only its result array, which ends as the entrywise product of its two operands as the region found
  them, and leaves every other buffer as entered. Composed, the result buffer holds the network function of the
  arguments.
-/
import proofs.«164128_j11321533792838_1_alg».proof.Proof.Gen.KernelIdeal.Frame
import proofs.«164128_j11321533792838_1_alg».proof.Proof.KernelBlocks
import proofs.«164128_j11321533792838_1_alg».proof.Proof.KernelLayers
import proofs.«164128_j11321533792838_1_alg».proof.Proof.KernelStretches
import Idealize.ShloMosaic.Lib.StableHlo.Run

set_option maxRecDepth 16384
set_option maxHeartbeats 4000000

noncomputable section

namespace Cert.KernelIdeal.Chase

open Cert.KernelIdeal Cert.KernelIdeal.Gen Cert.KernelIdeal.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Entering the first kernel: the edges' end points and weights, the arguments untouched -/

theorem enter1_src : W3 m ρ c (Proc.devRef .tc main_v3) = src (m ((c : Thread nD τ).loc main_arg1)) := by
  dsimp only [W3, W2, W1, hostOps0, hostOps0_1, hostOps0_2]
  after_results_simp <;> rfl

theorem enter1_dst : W3 m ρ c (Proc.devRef .tc main_v6) = dst (m ((c : Thread nD τ).loc main_arg1)) := by
  dsimp only [W3, W2, W1, hostOps0, hostOps0_1, hostOps0_2]
  after_results_simp <;> rfl

/-- The edges' weights: through the three stretches before the first kernel, each read by its own lemma — the end
    points, the degrees' two branches, the selection between them, the gathers and the product. -/
theorem enter1_weight : W3 m ρ c (Proc.devRef .tc main_v30) = edgeWeight (F := Ideal) (src (m ((c : Thread nD τ).loc main_arg1))) (dst (m ((c : Thread nD τ).loc main_arg1))) := by
  show StableHlo.after hostOps0_2 (StableHlo.after hostOps0_1 (StableHlo.after hostOps0 (W0 m ρ c))) (Proc.devRef .tc main_v30) = _
  rw [Stretch.first_stretch_split, StableHlo.after_append, Stretch.edge_weights, Stretch.select_weight,
    Stretch.select_keeps_src, Stretch.select_keeps_dst, Stretch.degree_positive, Stretch.degree_power, Stretch.degree_zero,
    Stretch.degree_keeps_src, Stretch.degree_keeps_dst, Stretch.endpoints_src, Stretch.endpoints_dst]
  rfl

theorem enter1_main_arg0 : W3 m ρ c (Proc.devRef .tc main_arg0) = m ((c : Thread nD τ).loc main_arg0) := by
  dsimp only [W3, W2, W1, hostOps0, hostOps0_1, hostOps0_2]
  after_results_simp <;> rfl

theorem enter1_main_arg2 : W3 m ρ c (Proc.devRef .tc main_arg2) = m ((c : Thread nD τ).loc main_arg2) := by
  dsimp only [W3, W2, W1, hostOps0, hostOps0_1, hostOps0_2]
  after_results_simp <;> rfl

theorem enter1_main_arg3 : W3 m ρ c (Proc.devRef .tc main_arg3) = m ((c : Thread nD τ).loc main_arg3) := by
  dsimp only [W3, W2, W1, hostOps0, hostOps0_1, hostOps0_2]
  after_results_simp <;> rfl

theorem enter1_main_arg4 : W3 m ρ c (Proc.devRef .tc main_arg4) = m ((c : Thread nD τ).loc main_arg4) := by
  dsimp only [W3, W2, W1, hostOps0, hostOps0_1, hostOps0_2]
  after_results_simp <;> rfl

theorem enter1_main_arg5 : W3 m ρ c (Proc.devRef .tc main_arg5) = m ((c : Thread nD τ).loc main_arg5) := by
  dsimp only [W3, W2, W1, hostOps0, hostOps0_1, hostOps0_2]
  after_results_simp <;> rfl

/-! ## Leaving the first kernel: its result array is the product; everything else as entered -/

theorem leave1_product : W4 m ρ c (Proc.devRef .tc main_v31)
    = Cert.Gcn.rowsTimes (M := 50000) (K := 128) (N := 128) (m ((c : Thread nD τ).loc main_arg0)) (m ((c : Thread nD τ).loc main_arg2)) := by
  refine (W4_arr m ρ c 2).trans ((Blocks.first_array (V3 m ρ) c).trans ?_)
  show Cert.Gcn.rowsTimes (M := 50000) (K := 128) (N := 128) (W3 m ρ c (Proc.devRef .tc main_arg0)) (W3 m ρ c (Proc.devRef .tc main_arg2)) = _
  rw [enter1_main_arg0, enter1_main_arg2]

theorem leave1_main_v3 : W4 m ρ c (Proc.devRef .tc main_v3) = W3 m ρ c (Proc.devRef .tc main_v3) := W4_of_ne m ρ c main_v3 (by decide)

theorem leave1_main_v6 : W4 m ρ c (Proc.devRef .tc main_v6) = W3 m ρ c (Proc.devRef .tc main_v6) := W4_of_ne m ρ c main_v6 (by decide)

theorem leave1_main_v30 : W4 m ρ c (Proc.devRef .tc main_v30) = W3 m ρ c (Proc.devRef .tc main_v30) := W4_of_ne m ρ c main_v30 (by decide)

theorem leave1_main_arg3 : W4 m ρ c (Proc.devRef .tc main_arg3) = W3 m ρ c (Proc.devRef .tc main_arg3) := W4_of_ne m ρ c main_arg3 (by decide)

theorem leave1_main_arg4 : W4 m ρ c (Proc.devRef .tc main_arg4) = W3 m ρ c (Proc.devRef .tc main_arg4) := W4_of_ne m ρ c main_arg4 (by decide)

theorem leave1_main_arg5 : W4 m ρ c (Proc.devRef .tc main_arg5) = W3 m ρ c (Proc.devRef .tc main_arg5) := W4_of_ne m ρ c main_arg5 (by decide)

/-! ## Entering the second kernel: the first layer's aggregation with its bias, negatives zeroed -/

theorem enter2_rows : W6 m ρ c (Proc.devRef .tc main_v48)
    = relu (F := Ideal) (aggregate128 (F := Ideal) (W4 m ρ c (Proc.devRef .tc main_v3)) (W4 m ρ c (Proc.devRef .tc main_v6)) (W4 m ρ c (Proc.devRef .tc main_v30))
        (W4 m ρ c (Proc.devRef .tc main_v31)) (W4 m ρ c (Proc.devRef .tc main_arg3))) := by
  show StableHlo.after hostOps1_1 (StableHlo.after hostOps1 (W4 m ρ c)) (Proc.devRef .tc main_v48) = _
  rw [Stretch.zero_negatives, Stretch.layer1_sum]

theorem enter2_main_v3 : W6 m ρ c (Proc.devRef .tc main_v3) = W4 m ρ c (Proc.devRef .tc main_v3) := by
  dsimp only [W6, W5, hostOps1, hostOps1_1]
  after_results_simp <;> rfl

theorem enter2_main_v6 : W6 m ρ c (Proc.devRef .tc main_v6) = W4 m ρ c (Proc.devRef .tc main_v6) := by
  dsimp only [W6, W5, hostOps1, hostOps1_1]
  after_results_simp <;> rfl

theorem enter2_main_v30 : W6 m ρ c (Proc.devRef .tc main_v30) = W4 m ρ c (Proc.devRef .tc main_v30) := by
  dsimp only [W6, W5, hostOps1, hostOps1_1]
  after_results_simp <;> rfl

theorem enter2_main_arg4 : W6 m ρ c (Proc.devRef .tc main_arg4) = W4 m ρ c (Proc.devRef .tc main_arg4) := by
  dsimp only [W6, W5, hostOps1, hostOps1_1]
  after_results_simp <;> rfl

theorem enter2_main_arg5 : W6 m ρ c (Proc.devRef .tc main_arg5) = W4 m ρ c (Proc.devRef .tc main_arg5) := by
  dsimp only [W6, W5, hostOps1, hostOps1_1]
  after_results_simp <;> rfl

/-! ## Leaving the second kernel -/

theorem leave2_product : W7 m ρ c (Proc.devRef .tc main_v49)
    = Cert.Gcn.rowsTimes (M := 50000) (K := 128) (N := 64) (W6 m ρ c (Proc.devRef .tc main_v48)) (W6 m ρ c (Proc.devRef .tc main_arg4)) :=
  (W7_arr m ρ c 2).trans (Blocks.second_array (V6 m ρ) c)

theorem leave2_main_v3 : W7 m ρ c (Proc.devRef .tc main_v3) = W6 m ρ c (Proc.devRef .tc main_v3) := W7_of_ne m ρ c main_v3 (by decide)

theorem leave2_main_v6 : W7 m ρ c (Proc.devRef .tc main_v6) = W6 m ρ c (Proc.devRef .tc main_v6) := W7_of_ne m ρ c main_v6 (by decide)

theorem leave2_main_v30 : W7 m ρ c (Proc.devRef .tc main_v30) = W6 m ρ c (Proc.devRef .tc main_v30) := W7_of_ne m ρ c main_v30 (by decide)

theorem leave2_main_arg5 : W7 m ρ c (Proc.devRef .tc main_arg5) = W6 m ρ c (Proc.devRef .tc main_arg5) := W7_of_ne m ρ c main_arg5 (by decide)

/-! ## The last stretch: the second layer's aggregation with its bias -/

theorem last_stretch : W8 m ρ c (Proc.devRef .tc main_v65)
    = aggregate64 (F := Ideal) (W7 m ρ c (Proc.devRef .tc main_v3)) (W7 m ρ c (Proc.devRef .tc main_v6)) (W7 m ρ c (Proc.devRef .tc main_v30))
        (W7 m ρ c (Proc.devRef .tc main_v49)) (W7 m ρ c (Proc.devRef .tc main_arg5)) :=
  Stretch.layer2_sum (W7 m ρ c)

/-! ## Composed -/

/-- THE RESULT BUFFER after the last stretch is the network function of the six arguments. -/
theorem result_eq_network : W8 m ρ c (Proc.devRef .tc main_v65)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [last_stretch, leave2_product, leave2_main_v3, leave2_main_v6, leave2_main_v30, leave2_main_arg5,
    enter2_rows, enter2_main_v3, enter2_main_v6, enter2_main_v30, enter2_main_arg4, enter2_main_arg5,
    leave1_product, leave1_main_v3, leave1_main_v6, leave1_main_v30, leave1_main_arg3, leave1_main_arg4, leave1_main_arg5,
    enter1_src, enter1_dst, enter1_weight, enter1_main_arg3, enter1_main_arg4, enter1_main_arg5]
  rfl

end Cert.KernelIdeal.Chase

end
-- ==== Proof.RefLayers.lean ====
/-
  The host side of the graph convolution, as functions of arrays: what the operations of `ReferenceIdeal` around the two
  matrix products compute, named by what they mean.
  The 850000 edges are the 800000 given ones followed by one self loop per node; `src` and `dst` are their end points.
  A node's degree counts the edges that end in it; its weight is degree^(-1/2) where the degree is positive and 0
  elsewhere; an edge's weight is the product of its two end points' weights. A layer gathers, for every edge, the row
  of its source node, scales it by the edge's weight, adds the scaled rows up at the edge's destination node, and
  adds the bias to every row. Between the two layers negative entries are replaced by zero.
  A node index below zero counts from the end (i + 50000), as jnp indexing does: `wrap`.
-/
import proofs.«164128_j11321533792838_1_alg».proof.Proof.Gen.ReferenceIdeal
import proofs.«164128_j11321533792838_1_alg».proof.Proof.MatmulSpec

noncomputable section

namespace Cert.ReferenceIdeal.Gcn

open Cert.ReferenceIdeal Cert.ReferenceIdeal.Gen Idealize.ShloMosaic

variable {F : FTy → Type} [FloatOps F]

/-- The source node of every edge: row 0 of the edge list, then the nodes 0 … 49999 for the self loops. -/
def src (e : IVec S2x800000 32) : IVec S850000 32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The destination node of every edge: row 1 of the edge list, then the nodes 0 … 49999 for the self loops. -/
def dst (e : IVec S2x800000 32) : IVec S850000 32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node indices as a column of start indices for a gather, an index below zero read as counting from the end. -/
def wrap (ix : IVec S850000 32) : IVec S850000x1 32 :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- A node's degree: one for every edge that ends in it, added onto zeros. -/
def degree (d : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- A node's weight: degree^(-1/2) where the degree is above zero, zero elsewhere. -/
def nodeWeight (d : IVec S850000 32) : FVec F S50000 .f32 :=
  select (cmpf .ogt (degree (F := F) d) (broadcastInDim S50000 ![] bcast_S_S50000 (constant S_ .f32 0x00000000#32)))
    (Host.powf (degree (F := F) d) (broadcastInDim S50000 ![] bcast_S_S50000 (constant S_ .f32 0xBF000000#32)))
    (broadcastInDim S50000 ![] bcast_S_S50000 (id (constant S_ .f32 0x00000000#32)))

/-- An edge's weight: the product of the weights of its source and of its destination. -/
def edgeWeight (s d : IVec S850000 32) : FVec F S850000 .f32 :=
  mulf (Host.gather gather_S50000_S850000x1_S850000_n_0_n_n_0_1_1 (nodeWeight (F := F) d) (wrap s))
    (Host.gather gather_S50000_S850000x1_S850000_n_0_n_n_0_1_1 (nodeWeight (F := F) d) (wrap d))

/-- The first layer's aggregation over 128 features: each edge's source row scaled by the edge's weight, summed at the
    edge's destination, plus the bias on every row. -/
def aggregate128 (s d : IVec S850000 32) (n : FVec F S850000 .f32) (h : FVec F S50000x128 .f32) (b : FVec F S128 .f32) :
    FVec F S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (mulf (Host.gather gather_S50000x128_S850000x1_S850000x128_1_0_n_n_0_1_1128 h (wrap s))
        (broadcastInDim S850000x128 ![0, 1] bcast_S850000x1_S850000x128_0_1 (broadcastInDim S850000x1 ![0] bcast_S850000_S850000x1_0 n))))
    (broadcastInDim S50000x128 ![0, 1] bcast_S1x128_S50000x128_0_1 (broadcastInDim S1x128 ![1] bcast_S128_S1x128_1 b))

/-- Negative entries replaced by zero. -/
def relu (h : FVec F S50000x128 .f32) : FVec F S50000x128 .f32 :=
  maximumf h (broadcastInDim S50000x128 ![] bcast_S_S50000x128 (constant S_ .f32 0x00000000#32))

/-- The second layer's aggregation over 64 features. -/
def aggregate64 (s d : IVec S850000 32) (n : FVec F S850000 .f32) (h : FVec F S50000x64 .f32) (b : FVec F S64 .f32) :
    FVec F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 d)
      (mulf (Host.gather gather_S50000x64_S850000x1_S850000x64_1_0_n_n_0_1_164 h (wrap s))
        (broadcastInDim S850000x64 ![0, 1] bcast_S850000x1_S850000x64_0_1 (broadcastInDim S850000x1 ![0] bcast_S850000_S850000x1_0 n))))
    (broadcastInDim S50000x64 ![0, 1] bcast_S1x64_S50000x64_0_1 (broadcastInDim S1x64 ![1] bcast_S64_S1x64_1 b))

/-- THE WHOLE NETWORK over the extended reals, the two products written as entrywise products: layer one on the node
    features, zeroing of the negatives, layer two. Both programs are shown to compute this function of their six
    arguments. -/
def network (x : FVec Ideal S50000x128 .f32) (e : IVec S2x800000 32) (w1 : FVec Ideal S128x128 .f32) (b1 : FVec Ideal S128 .f32)
    (w2 : FVec Ideal S128x64 .f32) (b2 : FVec Ideal S64 .f32) : FVec Ideal S50000x64 .f32 :=
  aggregate64 (F := Ideal) (src e) (dst e) (edgeWeight (F := Ideal) (src e) (dst e))
    (Cert.Gcn.rowsTimes (M := 50000) (K := 128) (N := 64)
      (relu (F := Ideal) (aggregate128 (F := Ideal) (src e) (dst e) (edgeWeight (F := Ideal) (src e) (dst e))
        (Cert.Gcn.rowsTimes (M := 50000) (K := 128) (N := 128) x w1) b1)) w2) b2

end Cert.ReferenceIdeal.Gcn

end
-- ==== Proof.RefDot.lean ====
/-
  The reference's two host products are the entrywise product `rowsTimes`: a host `dot_general` contracting the
  left's second axis with the right's first, read at the exact values, is the sum over the contraction position of
  the two factors' products, with no accumulator and no order left in it.
-/
import proofs.«164128_j11321533792838_1_alg».proof.Proof.Gen.ReferenceIdeal
import proofs.«164128_j11321533792838_1_alg».proof.Proof.MatmulSpec

noncomputable section

open scoped BigOperators

namespace Cert.ReferenceIdeal.Dot

open Cert.ReferenceIdeal Cert.ReferenceIdeal.Gen Idealize.ShloMosaic

/-! ### The dimension numbers `dot_S50000x128_S128x128_S50000x128_1_0_0_1_n_n`: contract the left's axis 1 with the right's axis 0 -/

theorem first_lhs0 (j : S50000x128.Idx) (q : dot_S50000x128_S128x128_S50000x128_1_0_0_1_n_n.contr.Idx) : (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem first_lhs1 (j : S50000x128.Idx) (q : dot_S50000x128_S128x128_S50000x128_1_0_0_1_n_n.contr.Idx) : (dot_S50000x128_S128x128_S50000x128_1_0_0_1_n_n.lhsIdx j q 1).val = (q ⟨0, by decide⟩).val :=
  dot_S50000x128_S128x128_S50000x128_1_0_0_1_n_n.lhsIdx_val_of_single rfl j q
theorem first_rhs0 (j : S50000x128.Idx) (q : dot_S50000x128_S128x128_S50000x128_1_0_0_1_n_n.contr.Idx) : (dot_S50000x128_S128x128_S50000x128_1_0_0_1_n_n.rhsIdx j q 0).val = (q ⟨0, by decide⟩).val :=
  dot_S50000x128_S128x128_S50000x128_1_0_0_1_n_n.rhsIdx_val_of_single rfl j q
theorem first_rhs1 (j : S50000x128.Idx) (q : dot_S50000x128_S128x128_S50000x128_1_0_0_1_n_n.contr.Idx) : (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The sum over this dot's one contraction axis, re-indexed by its position `k`, is the product's entry: the left
    factor is read at (row of `j`, `k`) and the right at (`k`, column of `j`). -/
theorem first_sum (l : S50000x128.Idx → EReal) (r : S128x128.Idx → EReal) (j : S50000x128.Idx) :
    ∑ q : dot_S50000x128_S128x128_S50000x128_1_0_0_1_n_n.contr.Idx, l (dot_S50000x128_S128x128_S50000x128_1_0_0_1_n_n.lhsIdx j q) * r (dot_S50000x128_S128x128_S50000x128_1_0_0_1_n_n.rhsIdx j q) = Cert.Gcn.rowsTimes l r j := by
  rw [Cert.Gcn.rowsTimes_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx j ((ValueIdx.contrEquiv1 dot_S50000x128_S128x128_S50000x128_1_0_0_1_n_n 128 rfl rfl).symm k) = ValueIdx.ix2 (j 0) k := funext fun a => Fin.ext (by
    match a with
    | ⟨0, _⟩ => exact first_lhs0 _ _
    | ⟨1, _⟩ => exact (first_lhs1 _ _).trans hk)
  have er : dot_S50000x128_S128x128_S50000x128_1_0_0_1_n_n.rhsIdx j ((ValueIdx.contrEquiv1 dot_S50000x128_S128x128_S50000x128_1_0_0_1_n_n 128 rfl rfl).symm k) = ValueIdx.ix2 k (j 1) := funext fun a => Fin.ext (by
    match a with
    | ⟨0, _⟩ => exact (first_rhs0 _ _).trans hk
    | ⟨1, _⟩ => exact first_rhs1 _ _)
  rw [el, er]
  rfl

/-! ### The dimension numbers `dot_S50000x128_S128x64_S50000x64_1_0_0_1_n_n`: contract the left's axis 1 with the right's axis 0 -/

theorem second_lhs0 (j : S50000x64.Idx) (q : dot_S50000x128_S128x64_S50000x64_1_0_0_1_n_n.contr.Idx) : (dot_S50000x128_S128x64_S50000x64_1_0_0_1_n_n.lhsIdx j q 0).val = (j 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem second_lhs1 (j : S50000x64.Idx) (q : dot_S50000x128_S128x64_S50000x64_1_0_0_1_n_n.contr.Idx) : (dot_S50000x128_S128x64_S50000x64_1_0_0_1_n_n.lhsIdx j q 1).val = (q ⟨0, by decide⟩).val :=
  dot_S50000x128_S128x64_S50000x64_1_0_0_1_n_n.lhsIdx_val_of_single rfl j q
theorem second_rhs0 (j : S50000x64.Idx) (q : dot_S50000x128_S128x64_S50000x64_1_0_0_1_n_n.contr.Idx) : (dot_S50000x128_S128x64_S50000x64_1_0_0_1_n_n.rhsIdx j q 0).val = (q ⟨0, by decide⟩).val :=
  dot_S50000x128_S128x64_S50000x64_1_0_0_1_n_n.rhsIdx_val_of_single rfl j q
theorem second_rhs1 (j : S50000x64.Idx) (q : dot_S50000x128_S128x64_S50000x64_1_0_0_1_n_n.contr.Idx) : (dot_S50000x128_S128x64_S50000x64_1_0_0_1_n_n.rhsIdx j q 1).val = (j 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The sum over this dot's one contraction axis, re-indexed by its position `k`, is the product's entry: the left
    factor is read at (row of `j`, `k`) and the right at (`k`, column of `j`). -/
theorem second_sum (l : S50000x128.Idx → EReal) (r : S128x64.Idx → EReal) (j : S50000x64.Idx) :
    ∑ q : dot_S50000x128_S128x64_S50000x64_1_0_0_1_n_n.contr.Idx, l (dot_S50000x128_S128x64_S50000x64_1_0_0_1_n_n.lhsIdx j q) * r (dot_S50000x128_S128x64_S50000x64_1_0_0_1_n_n.rhsIdx j q) = Cert.Gcn.rowsTimes l r j := by
  rw [Cert.Gcn.rowsTimes_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx j ((ValueIdx.contrEquiv1 dot_S50000x128_S128x64_S50000x64_1_0_0_1_n_n 128 rfl rfl).symm k) = ValueIdx.ix2 (j 0) k := funext fun a => Fin.ext (by
    match a with
    | ⟨0, _⟩ => exact second_lhs0 _ _
    | ⟨1, _⟩ => exact (second_lhs1 _ _).trans hk)
  have er : dot_S50000x128_S128x64_S50000x64_1_0_0_1_n_n.rhsIdx j ((ValueIdx.contrEquiv1 dot_S50000x128_S128x64_S50000x64_1_0_0_1_n_n 128 rfl rfl).symm k) = ValueIdx.ix2 k (j 1) := funext fun a => Fin.ext (by
    match a with
    | ⟨0, _⟩ => exact (second_rhs0 _ _).trans hk
    | ⟨1, _⟩ => exact second_rhs1 _ _)
  rw [el, er]
  rfl

/-- The first layer's host product `x · W1` is the entrywise product. -/
theorem first_eq (x : FVec Ideal S50000x128 .f32) (w : FVec Ideal S128x128 .f32) :
    Host.dotGeneral (F := Ideal) dot_S50000x128_S128x128_S50000x128_1_0_0_1_n_n none x w = Cert.Gcn.rowsTimes x w := by
  funext j
  simp only [Host.dotGeneral]
  rw [Ideal.dotGeneral_apply]
  exact first_sum x w j

/-- The second layer's host product `h · W2` is the entrywise product. -/
theorem second_eq (x : FVec Ideal S50000x128 .f32) (w : FVec Ideal S128x64 .f32) :
    Host.dotGeneral (F := Ideal) dot_S50000x128_S128x64_S50000x64_1_0_0_1_n_n none x w = Cert.Gcn.rowsTimes x w := by
  funext j
  simp only [Host.dotGeneral]
  rw [Ideal.dotGeneral_apply]
  exact second_sum x w j

end Cert.ReferenceIdeal.Dot

end
-- ==== Proof.RefValue.lean ====
/-
  What the reference computes, named: the composed term its run ends at is the network function of its six
  arguments. First, for any float instance, the term IS the layers' composition with the two host products (the same
  operations, grouped; the edge weights, which the reference computes once per layer, are one function of the edge
  list). Then, over the extended reals, each host product is the entrywise product.
-/
import proofs.«164128_j11321533792838_1_alg».proof.Proof.RefRun
import proofs.«164128_j11321533792838_1_alg».proof.Proof.RefLayers
import proofs.«164128_j11321533792838_1_alg».proof.Proof.RefDot

set_option maxRecDepth 16384

noncomputable section

namespace Cert.ReferenceIdeal.RefValue

open Cert.ReferenceIdeal Cert.ReferenceIdeal.Gen Cert.ReferenceIdeal.Gcn Idealize.ShloMosaic Idealize.ShloMosaic.TcCoe Idealize.SL.Sem

/-- The run's term is the two layers around the two host products, for any float instance. -/
theorem result_eq_layers {F : FTy → Type} [FloatOps F] (m : (ℓ : Loc nD τ sig) → Buf (Elt F) ℓ) (c : Dev nD) :
    Cert.ReferenceIdeal.ValueP.res_main_v80 (F := F) m c
      = aggregate64 (F := F) (src (m ((c.tc : Thread nD τ).loc main_arg1))) (dst (m ((c.tc : Thread nD τ).loc main_arg1))) (edgeWeight (F := F) (src (m ((c.tc : Thread nD τ).loc main_arg1))) (dst (m ((c.tc : Thread nD τ).loc main_arg1))))
          (Host.dotGeneral (F := F) dot_S50000x128_S128x64_S50000x64_1_0_0_1_n_n none
            (relu (F := F) (aggregate128 (F := F) (src (m ((c.tc : Thread nD τ).loc main_arg1))) (dst (m ((c.tc : Thread nD τ).loc main_arg1))) (edgeWeight (F := F) (src (m ((c.tc : Thread nD τ).loc main_arg1))) (dst (m ((c.tc : Thread nD τ).loc main_arg1))))
              (Host.dotGeneral (F := F) dot_S50000x128_S128x128_S50000x128_1_0_0_1_n_n none (m ((c.tc : Thread nD τ).loc main_arg0)) (m ((c.tc : Thread nD τ).loc main_arg2))) (m ((c.tc : Thread nD τ).loc main_arg3))))
            (m ((c.tc : Thread nD τ).loc main_arg4))) (m ((c.tc : Thread nD τ).loc main_arg5)) := by
  unfold Cert.ReferenceIdeal.ValueP.res_main_v80
  rfl

/-- Over the extended reals the reference's result is the network function of its arguments. -/
theorem result_eq_network (m : (ℓ : Loc nD τ sig) → Buf (Elt Ideal) ℓ) (c : Dev nD) :
    Cert.ReferenceIdeal.ValueP.res_main_v80 (F := Ideal) m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_eq_layers, Dot.first_eq, Dot.second_eq]
  rfl

end Cert.ReferenceIdeal.RefValue

end
-- ==== Proof.Bridge.lean ====
/-
  The two programs print the same host operations, each over its own copies of the shape names and dimension records;
  the network function is written once per program over that program's names. The two copies are one function: every
  shape name abbreviates the same literal shape, every record has the same fields, and the side conditions they carry
  are propositions.
-/
import proofs.«164128_j11321533792838_1_alg».proof.Proof.KernelLayers
import proofs.«164128_j11321533792838_1_alg».proof.Proof.RefLayers

set_option maxRecDepth 16384

noncomputable section

namespace Cert.Bridge

open Idealize.ShloMosaic

/-- The kernel program's network function is the reference program's. -/
theorem network_eq (x : FVec Ideal Cert.KernelIdeal.S50000x128 .f32) (e : IVec Cert.KernelIdeal.S2x800000 32)
    (w1 : FVec Ideal Cert.KernelIdeal.S128x128 .f32) (b1 : FVec Ideal Cert.KernelIdeal.S128 .f32)
    (w2 : FVec Ideal Cert.KernelIdeal.S128x64 .f32) (b2 : FVec Ideal Cert.KernelIdeal.S64 .f32) :
    Cert.KernelIdeal.Gcn.network x e w1 b1 w2 b2 = Cert.ReferenceIdeal.Gcn.network x e w1 b1 w2 b2 := rfl

end Cert.Bridge

end
-- ==== Proof.lean ====
/-
  The claim, assembled. A graph convolution network of two layers over 50000 nodes and 850000 edges (the 800000 given
  ones and one self loop per node): each layer multiplies the node features by a weight matrix, gathers the product's
  rows along the edges scaled by the symmetric degree normalisation, sums them at the destination nodes and adds a
  bias; negatives are zeroed between the layers. The kernel program computes the two matrix products in a blocked
  kernel (ten blocks of 5000 rows, both factors narrowed to a shorter float format, a zero accumulator) and everything
  else on the host; the reference computes everything on the host. Over the extended reals the narrowing is the
  identity and each blocked product is the host's product entry by entry (the same sum over the contraction position,
  the same order of the two factors), and all the other operations are the same operations on both sides, so both
  programs end at one function of the six arguments: `network`. No finiteness of the inputs is used: no sum is
  regrouped and no factor is moved across a sum.
  The three frames: the two kernel programs' by their generated frame certificates; the reference's by its run, the
  result dropped. The idealization rewrote no operation, so there is nothing to preserve.
-/
import proofs.«164128_j11321533792838_1_alg».proof.Defs
import proofs.«164128_j11321533792838_1_alg».proof.Proof.Gen.Kernel
import proofs.«164128_j11321533792838_1_alg».proof.Proof.Gen.Kernel.Skeleton
import proofs.«164128_j11321533792838_1_alg».proof.Proof.Gen.Kernel.Launch
import proofs.«164128_j11321533792838_1_alg».proof.Proof.Gen.Kernel.Points
import proofs.«164128_j11321533792838_1_alg».proof.Proof.Gen.Kernel.Frame
import proofs.«164128_j11321533792838_1_alg».proof.Proof.Gen.KernelIdeal
import proofs.«164128_j11321533792838_1_alg».proof.Proof.Gen.KernelIdeal.Skeleton
import proofs.«164128_j11321533792838_1_alg».proof.Proof.Gen.KernelIdeal.Launch
import proofs.«164128_j11321533792838_1_alg».proof.Proof.Gen.KernelIdeal.Points
import proofs.«164128_j11321533792838_1_alg».proof.Proof.Gen.KernelIdeal.Frame
import proofs.«164128_j11321533792838_1_alg».proof.Proof.Gen.ReferenceIdeal
import proofs.«164128_j11321533792838_1_alg».proof.Proof.Gen.Pre_finite_inputs
import proofs.«164128_j11321533792838_1_alg».proof.Proof.RefRun
import proofs.«164128_j11321533792838_1_alg».proof.Proof.KernelRun
import proofs.«164128_j11321533792838_1_alg».proof.Proof.KernelValue
import proofs.«164128_j11321533792838_1_alg».proof.Proof.RefValue
import proofs.«164128_j11321533792838_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs, from memories agreeing on the arguments, end with the result at the network function of the
    kernel program's arguments: the kernel program by its run and the boundary-by-boundary reading of its buffers, the
    reference by its run and the reading of its composed term, the two network functions being one. -/
theorem algebraic : Cert.algebraic_KernelIdeal_ReferenceIdeal := by
  intro m ρ m' ρ' _ hagree
  refine ⟨fun c => Cert.KernelIdeal.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chase.result_eq_network m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.RefValue.result_eq_network, a0, a1, a2, a3, a4, a5]
    exact (Cert.Bridge.network_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
